-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x11008 .f32
  ∧ IdealRules.sign_bit.Statement Cert.KernelIdeal.S128x11008 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S_ : Shape := ⟨0, ![]⟩

class Facts : Prop where
  bcast_S_S4096x11008 : S_.BroadcastsInDim S4096x11008 (![] : Fin 0 → Fin S4096x11008.rank)
  reducesTo_S4096x11008_S_d0_1 : S4096x11008.ReducesTo [0, 1] S_
  h_S_ : 0 < S_.numel

variable [Facts]

def fn {F : FTy → Type} [FloatOps F] (main_arg0 : FVec F S4096x11008 .f32) (main_arg1 : IVec S4096x11008 1) : IVec S_ 1 :=
  let main_v0 : FVec F S4096x11008 .f32 := Host.absf main_arg0
  let main_cst : FVec F S_ .f32 := constant S_ .f32 0x7F800000#32
  let main_v1 : FVec F S4096x11008 .f32 := broadcastInDim S4096x11008 ![] bcast_S_S4096x11008 main_cst
  let main_v2 : IVec S4096x11008 1 := cmpf .olt main_v0 main_v1
  let main_c : IVec S_ 1 := constantI S_ 1 1#1
  let main_v3 : IVec S_ 1 := (fun x v => Host.reduce IntOp.andi x v reducesTo_S4096x11008_S_d0_1 h_S_) main_v2 main_c
  main_v3
-- ==== Kernel.lean ====
abbrev S4096x11008 : Shape := ⟨2, ![4096, 11008]⟩
abbrev S128x11008 : Shape := ⟨2, ![128, 11008]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x11008, .f32⟩
  | .hbm, ⟨1, _⟩ => ⟨S4096x11008, .i1⟩
  | .hbm, ⟨2, _⟩ => ⟨S4096x11008, .i32⟩
  | .hbm, ⟨3, _⟩ => ⟨S4096x11008, .f32⟩
  | .local _ .vmem, ⟨0, _⟩ => ⟨S128x11008, .f32⟩
  | .local _ .vmem, ⟨1, _⟩ => ⟨S128x11008, .f32⟩
  | .local _ .vmem, ⟨2, _⟩ => ⟨S128x11008, .i32⟩
  | .local _ .vmem, ⟨3, _⟩ => ⟨S128x11008, .i32⟩
  | .local _ .vmem, ⟨4, _⟩ => ⟨S128x11008, .f32⟩
  | .local _ .vmem, ⟨5, _⟩ => ⟨S128x11008, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11008 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S128x11008_S128x11008_0_0 : ∀ a, (![0, 0] : Fin 2 → Nat) a + S128x11008.size a ≤ S128x11008.size a
  h_S128x11008 : 0 < S128x11008.numel
  reduces_S128x11008_S128 : S128x11008.Reduces [1] S128
  shapeCasts_S128_S128x1 : S128.ShapeCasts S128x1
  broadcasts_S128x1_S128x11008 : S128x1.Broadcasts S128x11008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x11008.size a ≤ S4096x11008.size a
  hwx0_0 : ∀ i : grid0.Coords, EltTy.bits .f32 = 32 ∨ (Rect.block (s := S4096x11008) S128x11008.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x11008.size a ≤ S4096x11008.size a
  hwx0_1 : ∀ i : grid0.Coords, EltTy.bits .i32 = 32 ∨ (Rect.block (s := S4096x11008) S128x11008.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x11008.size a ≤ S4096x11008.size a
  hwx0_2 : ∀ i : grid0.Coords, EltTy.bits .f32 = 32 ∨ (Rect.block (s := S4096x11008) S128x11008.size (cc0_transform_2 i) (hinb0_2 i)).WholeWords (EltTy.packing .f32)

variable [Facts₀]

abbrev win0_0 : Pipeline.Window sig grid0 :=
  Pipeline.Window.ofSpec (Memref.whole main_arg0) S128x11008.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x11008.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x11008.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x11008 : Shape := ⟨2, ![4096, 11008]⟩
abbrev S_ : Shape := ⟨0, ![]⟩
abbrev S4096 : Shape := ⟨1, ![4096]⟩
abbrev S4096x1 : Shape := ⟨2, ![4096, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S4096x11008, .i1⟩
  | .hbm, ⟨2, _⟩ => ⟨S4096x11008, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .i1⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x11008, .f32⟩
  | .hbm, ⟨20, _⟩ => ⟨S_, .f32⟩
  | .hbm, ⟨21, _⟩ => ⟨S4096x11008, .f32⟩
  | .hbm, ⟨22, _⟩ => ⟨S4096x11008, .f32⟩
  | .hbm, ⟨23, _⟩ => ⟨S4096x11008, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S4096x11008, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x11008, .f32⟩
  | .hbm, ⟨41, _⟩ => ⟨S4096x11008, .f32⟩
  | .hbm, ⟨42, _⟩ => ⟨S4096x11008, .f32⟩
  | .hbm, ⟨43, _⟩ => ⟨S4096x11008, .f32⟩
  | .hbm, ⟨44, _⟩ => ⟨S4096x11008, .f32⟩
  | .hbm, ⟨45, _⟩ => ⟨S4096x11008, .f32⟩
  | .hbm, ⟨46, _⟩ => ⟨S4096x11008, .f32⟩
  | .hbm, ⟨47, _⟩ => ⟨S4096x11008, .f32⟩
  | .hbm, ⟨48, _⟩ => ⟨S4096x11008, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1, .f32⟩
  | .hbm, ⟨53, _⟩ => ⟨S4096x11008, .f32⟩
  | .hbm, ⟨54, _⟩ => ⟨S4096x11008, .f32⟩
  | .hbm, ⟨55, _⟩ => ⟨S4096x11008, .f32⟩
  | .hbm, ⟨56, _⟩ => ⟨S4096x11008, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x11008, .f32⟩
  | .hbm, ⟨66, _⟩ => ⟨S4096x11008, .f32⟩
  | .hbm, ⟨67, _⟩ => ⟨S4096x11008, .f32⟩
  | .hbm, ⟨68, _⟩ => ⟨S4096x11008, .f32⟩
  | .hbm, ⟨69, _⟩ => ⟨S4096x11008, .f32⟩
  | .hbm, ⟨70, _⟩ => ⟨S4096x11008, .f32⟩
  | .hbm, ⟨71, _⟩ => ⟨S4096x11008, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]

class Facts₀ : Prop where
  reducesTo_S4096x11008_S4096_d1 : S4096x11008.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x11008 : S_.BroadcastsInDim S4096x11008 (![] : Fin 0 → Fin S4096x11008.rank)
  bcast_S4096x1_S4096x11008_0_1 : S4096x1.BroadcastsInDim S4096x11008 (![0, 1] : Fin 2 → Fin S4096x11008.rank)

variable [Facts₀]

class Facts : Prop extends Facts₀ where

variable [Facts]
-- ==== Proof.MatSpec.lean ====
/-
  Multi-order residual sign binarization with per-row masked mean and variance, on a matrix of any number of rows.

  A matrix `x` with 11008 columns comes with a mask `mf` of the same shape (a matrix of zeros and ones, though nothing
  below uses that). Per row: `count` is the sum of the mask, and `invCount` is `1 / max count 1` where `count > 0`
  and `0` elsewhere. Starting from the zero matrix `so`, each order takes the masked residual
  `res = (x · mf − so) · mf`, its masked row mean `mean = (Σ res) · invCount`, the centred residual
  `cen = (res − mean) · mf`, the scale `√((Σ cen²) · invCount) · c` with `c` the single-precision word of
  `√(2/π)`, and adds `(mean + scale · sign cen) · mf` to `so`. The result is `so` after two orders.

  Every row sum runs along one row, a row's mean and scale are copied back along that row, and everything else acts
  entry by entry: so row `r` of the result is a function of row `r` of `x` and of `mf` alone (`out_row_congr`). This
  is what lets a computation on a block of rows be read as the computation on the whole matrix.
-/
import Idealize.ShloMosaic.PureOps.Ideal.Laws
import Idealize.ShloMosaic.Lib.ValueIdx

noncomputable section

open scoped BigOperators

namespace Cert.MaskedRows

open Idealize.ShloMosaic Idealize.ShloMosaic.ValueIdx

/-- A matrix of `A` rows and 11008 columns of extended reals. -/
abbrev Mat (A : ℕ) : Type := FVec Ideal ⟨2, ![A, 11008]⟩ .f32
/-- A column of `A` extended reals: one number per row. -/
abbrev Col (A : ℕ) : Type := FVec Ideal ⟨2, ![A, 1]⟩ .f32

variable {A B : ℕ}

/-- The row an index of a matrix or a column lies in. -/
abbrev rowOf {n : ℕ} (j : (⟨2, ![A, n]⟩ : Shape).Idx) : Fin A := ⟨(j 0).val, (j 0).isLt⟩

/-- The sum of each row, as a column. -/
def rowSum (v : Mat A) : Col A := fun j => ∑ k : Fin 11008, v (ix2 (rowOf j) k)

/-- A column copied along every row. -/
def spread (c : Col A) : Mat A := fun i => c (ix2 (rowOf i) (0 : Fin 1))

/-- The sign of every entry: `-1`, `0` or `1`. -/
def signM (v : Mat A) : Mat A := fun i => Ideal.sign (v i)

/-- The zero matrix. -/
def zeroM : Mat A := broadcast _ (Scalar.ofBits .f32 0x00000000#32)

/-- Per row: `1 / max count 1` where the mask's row sum `count` is positive, `0` elsewhere. -/
def invCount (mf : Mat A) : Col A :=
  select (cmpf .ogt (rowSum mf) (broadcast _ (Scalar.ofBits .f32 0x00000000#32)))
    (divf (broadcast _ (Scalar.ofBits .f32 0x3F800000#32)) (maximumf (rowSum mf) (broadcast _ (Scalar.ofBits .f32 0x3F800000#32))))
    (broadcast _ (Scalar.ofBits .f32 0x00000000#32))

/-- The masked residual `(nm − so) · mf`. -/
def residual (nm so mf : Mat A) : Mat A := mulf (subf nm so) mf

/-- The masked row mean `(Σ res) · ic`. -/
def mean (res : Mat A) (ic : Col A) : Col A := mulf (rowSum res) ic

/-- The centred residual `(res − mean) · mf`. -/
def centered (res : Mat A) (mu : Col A) (mf : Mat A) : Mat A := mulf (subf res (spread mu)) mf

/-- The scale `√((Σ cen²) · ic) · c`, with `c` the single-precision word of `√(2/π)`. -/
def scale (cen : Mat A) (ic : Col A) : Col A :=
  mulf (sqrt (mulf (rowSum (mulf cen cen)) ic)) (broadcast _ (Scalar.ofBits .f32 0x3F4C422A#32))

/-- One order's component `(mean + scale · sign cen) · mf`. -/
def component (mu sc : Col A) (cen mf : Mat A) : Mat A := mulf (addf (spread mu) (mulf (spread sc) (signM cen))) mf

/-- One order: `so` plus the component computed from the residual against `so`. -/
def step (mf nm : Mat A) (ic : Col A) (so : Mat A) : Mat A :=
  addf so (component (mean (residual nm so mf) ic)
    (scale (centered (residual nm so mf) (mean (residual nm so mf) ic) mf) ic)
    (centered (residual nm so mf) (mean (residual nm so mf) ic) mf) mf)

/-- Two orders from the zero matrix. -/
def out (x mf : Mat A) : Mat A :=
  step mf (mulf x mf) (invCount mf) (step mf (mulf x mf) (invCount mf) zeroM)

/-! ## Read at an index -/

theorem rowSum_apply (v : Mat A) (p : Fin A) (u : Fin 1) : rowSum v (ix2 p u) = ∑ k : Fin 11008, v (ix2 p k) := rfl

theorem spread_apply (c : Col A) (p : Fin A) (q : Fin 11008) : spread c (ix2 p q) = c (ix2 p (0 : Fin 1)) := rfl

/-! ## A row of the result depends on that row of the inputs alone -/

section Locality

variable (r : Fin A) (r' : Fin B)

/-- Row `r` of `v` is row `r'` of `v'`. -/
def RowEq (v : Mat A) (v' : Mat B) : Prop := ∀ k : Fin 11008, v (ix2 r k) = v' (ix2 r' k)

/-- Entry `r` of `c` is entry `r'` of `c'`. -/
def ColEq (c : Col A) (c' : Col B) : Prop := c (ix2 r (0 : Fin 1)) = c' (ix2 r' (0 : Fin 1))

variable {r r'}

theorem RowEq.mulf {a b : Mat A} {a' b' : Mat B} (ha : RowEq r r' a a') (hb : RowEq r r' b b') :
    RowEq r r' (mulf a b) (mulf a' b') := fun k => by
  show FloatOps.mulf (a _) (b _) = FloatOps.mulf (a' _) (b' _); rw [ha k, hb k]

theorem RowEq.subf {a b : Mat A} {a' b' : Mat B} (ha : RowEq r r' a a') (hb : RowEq r r' b b') :
    RowEq r r' (subf a b) (subf a' b') := fun k => by
  show FloatOps.subf (a _) (b _) = FloatOps.subf (a' _) (b' _); rw [ha k, hb k]

theorem RowEq.addf {a b : Mat A} {a' b' : Mat B} (ha : RowEq r r' a a') (hb : RowEq r r' b b') :
    RowEq r r' (addf a b) (addf a' b') := fun k => by
  show FloatOps.addf (a _) (b _) = FloatOps.addf (a' _) (b' _); rw [ha k, hb k]

theorem RowEq.signM {a : Mat A} {a' : Mat B} (ha : RowEq r r' a a') : RowEq r r' (signM a) (signM a') := fun k => by
  show Ideal.sign (a _) = Ideal.sign (a' _); rw [ha k]

theorem RowEq.zeroM : RowEq r r' (zeroM : Mat A) (zeroM : Mat B) := fun _ => rfl

theorem RowEq.rowSum {v : Mat A} {v' : Mat B} (h : RowEq r r' v v') : ColEq r r' (rowSum v) (rowSum v') := by
  show ∑ k : Fin 11008, v (ix2 r k) = ∑ k : Fin 11008, v' (ix2 r' k)
  exact Finset.sum_congr rfl fun k _ => h k

theorem ColEq.spread {c : Col A} {c' : Col B} (h : ColEq r r' c c') : RowEq r r' (spread c) (spread c') := fun _ => h

theorem ColEq.mulf {a b : Col A} {a' b' : Col B} (ha : ColEq r r' a a') (hb : ColEq r r' b b') :
    ColEq r r' (mulf a b) (mulf a' b') := by
  show FloatOps.mulf (a _) (b _) = FloatOps.mulf (a' _) (b' _); rw [ha, hb]

theorem ColEq.sqrt {a : Col A} {a' : Col B} (ha : ColEq r r' a a') : ColEq r r' (sqrt a) (sqrt a') := by
  show FloatOps.sqrt (a _) = FloatOps.sqrt (a' _); rw [ha]

theorem ColEq.broadcast (x : EReal) : ColEq r r' (broadcast _ x : Col A) (broadcast _ x : Col B) := rfl

theorem RowEq.invCount {mf : Mat A} {mf' : Mat B} (h : RowEq r r' mf mf') : ColEq r r' (invCount mf) (invCount mf') := by
  have hs : MaskedRows.rowSum mf (ix2 r (0 : Fin 1)) = MaskedRows.rowSum mf' (ix2 r' (0 : Fin 1)) := h.rowSum
  show Scalar.select (FloatOps.cmpf .ogt (MaskedRows.rowSum mf (ix2 r (0 : Fin 1))) _)
      (FloatOps.divf _ (FloatOps.maximumf (MaskedRows.rowSum mf (ix2 r (0 : Fin 1))) _)) _
    = Scalar.select (FloatOps.cmpf .ogt (MaskedRows.rowSum mf' (ix2 r' (0 : Fin 1))) _)
      (FloatOps.divf _ (FloatOps.maximumf (MaskedRows.rowSum mf' (ix2 r' (0 : Fin 1))) _)) _
  rw [hs]
  rfl

theorem RowEq.residual {nm so mf : Mat A} {nm' so' mf' : Mat B} (hn : RowEq r r' nm nm') (hs : RowEq r r' so so')
    (hm : RowEq r r' mf mf') : RowEq r r' (residual nm so mf) (residual nm' so' mf') := (hn.subf hs).mulf hm

theorem ColEq.mean {res : Mat A} {res' : Mat B} {ic : Col A} {ic' : Col B} (hr : RowEq r r' res res') (hi : ColEq r r' ic ic') :
    ColEq r r' (mean res ic) (mean res' ic') := hr.rowSum.mulf hi

theorem RowEq.centered {res mf : Mat A} {res' mf' : Mat B} {mu : Col A} {mu' : Col B} (hr : RowEq r r' res res')
    (hu : ColEq r r' mu mu') (hm : RowEq r r' mf mf') : RowEq r r' (centered res mu mf) (centered res' mu' mf') :=
  (hr.subf hu.spread).mulf hm

theorem ColEq.scale {cen : Mat A} {cen' : Mat B} {ic : Col A} {ic' : Col B} (hc : RowEq r r' cen cen') (hi : ColEq r r' ic ic') :
    ColEq r r' (scale cen ic) (scale cen' ic') := (((hc.mulf hc).rowSum.mulf hi).sqrt).mulf (ColEq.broadcast _)

theorem RowEq.component {mu sc : Col A} {mu' sc' : Col B} {cen mf : Mat A} {cen' mf' : Mat B} (hu : ColEq r r' mu mu')
    (hs : ColEq r r' sc sc') (hc : RowEq r r' cen cen') (hm : RowEq r r' mf mf') :
    RowEq r r' (component mu sc cen mf) (component mu' sc' cen' mf') :=
  (hu.spread.addf (hs.spread.mulf hc.signM)).mulf hm

theorem RowEq.step {mf nm so : Mat A} {mf' nm' so' : Mat B} {ic : Col A} {ic' : Col B} (hm : RowEq r r' mf mf')
    (hn : RowEq r r' nm nm') (hi : ColEq r r' ic ic') (hs : RowEq r r' so so') :
    RowEq r r' (step mf nm ic so) (step mf' nm' ic' so') :=
  have hres := hn.residual hs hm
  have hmu := ColEq.mean hres hi
  have hcen := hres.centered hmu hm
  hs.addf (RowEq.component hmu (ColEq.scale hcen hi) hcen hm)

theorem RowEq.out {x mf : Mat A} {x' mf' : Mat B} (hx : RowEq r r' x x') (hm : RowEq r r' mf mf') :
    RowEq r r' (out x mf) (out x' mf') :=
  RowEq.step hm (hx.mulf hm) hm.invCount (RowEq.step hm (hx.mulf hm) hm.invCount RowEq.zeroM)

end Locality

/-- Row `r` of the result is the same function of row `r` of the matrix and of the mask, whatever the other rows
    hold and however many there are. -/
theorem out_row_congr (x mf : Mat A) (x' mf' : Mat B) (r : Fin A) (r' : Fin B)
    (hx : ∀ k : Fin 11008, x (ix2 r k) = x' (ix2 r' k)) (hm : ∀ k : Fin 11008, mf (ix2 r k) = mf' (ix2 r' k))
    (q : Fin 11008) : out x mf (ix2 r q) = out x' mf' (ix2 r' q) :=
  RowEq.out (r := r) (r' := r') hx hm q

end Cert.MaskedRows

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.KernelMat.lean ====
/-
  The kernel's body, on one block of 128 rows, is the row computation of `Cert.MaskedRows` on a 128-row matrix.

  The body loads a block `x0` of the matrix and the matching block `x1` of the mask (as 32-bit words: nonzero means
  kept), turns the words into the zero-one matrix `mf`, and then runs two orders of the residual sign binarization. Its
  three kinds of step that are not entry by entry are: a sum along each row, written as a lane reduction from the zero
  word whose vector of 128 sums is laid out as a column; a column copied along the rows; and the sign, written as
  "one with the entry's sign bit where the entry's magnitude is positive, the entry itself elsewhere". Each is
  identified with the specification's `rowSum`, `spread` and `signM`, and with these every named intermediate value of
  the body is the specification's value of the same name.
-/
import proofs.«145001_j69930657513784_1_alg».proof.Proof.Gen.KernelIdeal.Frame
import proofs.«145001_j69930657513784_1_alg».proof.Proof.MatSpec
import proofs.«145001_j69930657513784_1_alg».proof.Proof.LibColumnForms
import proofs.«145001_j69930657513784_1_alg».proof.Proof.LibRowForms
import Idealize.ShloMosaic.Lib.Pipeline.Value

noncomputable section

namespace Cert.KernelIdeal.Block

open Cert.KernelIdeal Cert.KernelIdeal.Gen Cert.MaskedRows Idealize.ShloMosaic Idealize.ShloMosaic.ValueIdx

theorem hz : (![0, 0] : Fin 2 → Nat) = fun _ => 0 := funext fun a => by fin_cases a <;> rfl

/-! ## The three steps that are not entry by entry -/

/-- The lane sums of a block from the zero word, laid out as a column, are the block's row sums. -/
theorem rowSum_eq (v : FVec Ideal S128x11008 .f32) :
    shapeCast S128x1 (multiReduction .add [1] S128 v 0x00000000#32 reduces_S128x11008_S128 (.inl rfl) rfl) shapeCasts_S128_S128x1
      = rowSum v := by
  funext j
  obtain ⟨p, u, rfl⟩ : ∃ (p : Fin 128) (u : Fin 1), j = ix2 p u := ⟨j 0, j 1, eq_ix2 j⟩
  exact (Cert.ColumnForms.shapeCast_a_a1_apply _ shapeCasts_S128_S128x1 p u).trans
    (Cert.RowForms.multiReduction_add_rows v reduces_S128x11008_S128 p)

/-- A column of 128 numbers copied to the block's shape is the column spread along the rows. -/
theorem spread_eq (c : FVec Ideal S128x1 .f32) : broadcastTo S128x11008 c broadcasts_S128x1_S128x11008 = spread c := by
  funext i
  obtain ⟨p, q, rfl⟩ : ∃ (p : Fin 128) (q : Fin 11008), i = ix2 p q := ⟨i 0, i 1, eq_ix2 i⟩
  exact Cert.ColumnForms.broadcastTo_a1_ab_apply c broadcasts_S128x1_S128x11008 p q

/-- One with the entry's sign where the magnitude is positive, the entry itself (a zero) elsewhere: the sign. -/
theorem sign_eq (v : FVec Ideal S128x11008 .f32) :
    select (cmpf .ogt (absf v) (broadcast S128x11008 (Scalar.ofBits (F := Ideal) .f32 0x00000000#32)))
      (select (cmpf .olt v (constant S128x11008 .f32 0x00000000#32)) (constant S128x11008 .f32 0xBF800000#32)
        (constant S128x11008 .f32 0x3F800000#32)) v
      = signM v :=
  funext fun i => Ideal.jnp_sign_eq_sign_f32 (v i)

/-! ## The body's named values -/

/-- The reciprocal count of kept entries per row. -/
theorem pay3_eq (x1 : Vec Ideal S128x11008 .i32) : k0_pay3 (F := Ideal) x1 = invCount (k0_pay2 x1) := by
  simp only [invCount, ← rowSum_eq]
  rfl

/-- The first order's residual, against the zero matrix. -/
theorem pay6_eq (x0 : Vec Ideal S128x11008 .f32) (x1 : Vec Ideal S128x11008 .i32) :
    k0_pay6 (F := Ideal) x0 x1 = MaskedRows.residual (mulf x0 (k0_pay2 x1)) zeroM (k0_pay2 x1) := rfl

/-- The first order's row mean. -/
theorem pay7_eq (x0 : Vec Ideal S128x11008 .f32) (x1 : Vec Ideal S128x11008 .i32) :
    k0_pay7 (F := Ideal) x0 x1 = mean (k0_pay6 x0 x1) (k0_pay3 x1) := by
  simp only [mean, ← rowSum_eq]
  rfl

/-- The first order's mean, copied along the rows. -/
theorem pay9_eq (x0 : Vec Ideal S128x11008 .f32) (x1 : Vec Ideal S128x11008 .i32) :
    k0_pay9 (F := Ideal) x0 x1 = spread (k0_pay7 x0 x1) := spread_eq _

/-- The first order's scale times the sign of the centred residual. -/
theorem pay8_eq (x0 : Vec Ideal S128x11008 .f32) (x1 : Vec Ideal S128x11008 .i32) :
    k0_pay8 (F := Ideal) x0 x1
      = mulf (spread (scale (centered (k0_pay6 x0 x1) (k0_pay7 x0 x1) (k0_pay2 x1)) (k0_pay3 x1)))
          (signM (centered (k0_pay6 x0 x1) (k0_pay7 x0 x1) (k0_pay2 x1))) := by
  simp only [scale, centered, ← rowSum_eq, ← spread_eq, ← sign_eq]
  rfl

/-- The stored value: the second order, started from what the first order left. -/
theorem pay1_eq (v4 v15 v16 v43 v44 : FVec Ideal S128x11008 .f32) (v14 : FVec Ideal S128x1 .f32) :
    k0_pay1 (F := Ideal) v4 v14 v15 v16 v43 v44 = step v4 v15 v14 (addf v16 (mulf (addf v44 v43) v4)) := by
  simp only [step, component, scale, centered, mean, MaskedRows.residual, ← rowSum_eq, ← spread_eq, ← sign_eq]
  rfl

/-- What the body leaves in the output block: two orders of the row computation on the loaded block. -/
theorem out0_2_eq (x0 : Vec Ideal S128x11008 .f32) (x1 : Vec Ideal S128x11008 .i32) :
    out0_2 (F := Ideal) x0 x1 = out x0 (k0_pay2 x1) := by
  unfold out0_2
  rw [View.canon_unit_zero hz]
  simp only [View.ld_unit_zero (S := S128x11008) hz]
  rw [pay1_eq, pay9_eq, pay8_eq, pay7_eq, pay6_eq, pay3_eq]
  rfl

/-! ## The mask's words -/

/-- A mask bit widened to a word, tested against zero, widened again and read as a signed number is the bit read as a
    number: `0` or `1`. -/
theorem mask_word (b : BitVec 1) :
    FloatOps.sitofp (F := Ideal) .f32 ((IntOp.cmpi .ne (b.setWidth 32) (0#32 : BitVec 32)).setWidth 32)
      = FloatOps.uitofp (F := Ideal) .f32 b := by
  have h : ((IntOp.cmpi .ne (b.setWidth 32) (0#32 : BitVec 32)).setWidth 32).toInt = (b.toNat : ℤ) := by
    rcases BitVec.eq_zero_or_eq_one b with h | h <;> subst h <;> decide
  show ((((IntOp.cmpi .ne (b.setWidth 32) (0#32 : BitVec 32)).setWidth 32).toInt : ℝ) : EReal) = ((b.toNat : ℝ) : EReal)
  rw [h, Int.cast_natCast]

/-- The zero-one matrix the body makes of a block of mask words, at an entry. -/
theorem pay2_apply (x1 : Vec Ideal S128x11008 .i32) (i : S128x11008.Idx) :
    k0_pay2 (F := Ideal) x1 i = FloatOps.sitofp (F := Ideal) .f32 ((IntOp.cmpi .ne (x1 i) (0#32 : BitVec 32)).setWidth 32) := rfl

end Cert.KernelIdeal.Block

end
-- ==== Proof.KernelArray.lean ====
/-
  From blocks to the whole matrix: the kernel's result array is the row computation on the whole 4096-row matrix.

  The launch has 32 grid points. Point `t` loads rows `128 t … 128 t + 127` of the matrix and of the mask (the mask
  already widened to 32-bit words on the host), and writes the same rows of the result. A row of the row computation is
  a function of that row of its inputs alone, so what point `t` writes is rows `128 t … 128 t + 127` of the row
  computation applied to the whole matrix and the whole mask (`flushed_eq`); row `r` is written by point `r / 128`, so
  the 32 blocks cover the array (`covered`), and the array ends holding the row computation of the arguments (`final`).
-/
import proofs.«145001_j69930657513784_1_alg».proof.Proof.Gen.KernelIdeal.Frame
import proofs.«145001_j69930657513784_1_alg».proof.Proof.KernelMat
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Block Cert.MaskedRows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The row computation of the two argument arrays: the matrix, and the mask read as zeros and ones. -/
def G (c : Dev nD) : Buf (Elt Ideal) ((c : Thread nD τ).loc main_v1) :=
  out (m ((c : Thread nD τ).loc main_arg0) : FVec Ideal S4096x11008 .f32)
    (uitofp .f32 (m ((c : Thread nD τ).loc main_arg1) : IVec S4096x11008 1))

/-- Every window's block index at point `t` is `(t, 0)`: block `t` of 128 whole rows (decided over the 32 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The mask as the launch finds it: each bit widened to a 32-bit word by the host. -/
theorem V_main_v0 (c : Dev nD) :
    (V m c main_v0 : IVec S4096x11008 32) = extui 32 (m ((c : Thread nD τ).loc main_arg1) : IVec S4096x11008 1) natLt_1_32 := by
  dsimp only [V, hostOps0]
  after_results

/-- Entry `(p, k)` of the matrix's block at point `t` is entry `(128 t + p, k)` of the matrix. -/
theorem iblk0_apply (c : Dev nD) (t : Fin cfg0.N) (p : Fin 128) (k : Fin 11008) (r' : Fin 4096) (hr : r'.val = 128 * t.val + p.val) :
    (iblk m c 0 t : Vec Ideal S128x11008 .f32) (ix2 p k)
      = (m ((c : Thread nD τ).loc main_arg0) : FVec Ideal S4096x11008 .f32) (ix2 r' k) := by
  obtain ⟨e0, e1, -, -, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 128 + 1 * p.val = r'.val; omega
  | ⟨1, _⟩ => show win0_0.index t (1 : Fin 2) * 11008 + 1 * k.val = k.val; omega

/-- Entry `(p, k)` of the mask's block at point `t` is the mask's bit at `(128 t + p, k)`, widened to a word. -/
theorem iblk1_apply (c : Dev nD) (t : Fin cfg0.N) (p : Fin 128) (k : Fin 11008) (r' : Fin 4096) (hr : r'.val = 128 * t.val + p.val) :
    (iblk m c 1 t : Vec Ideal S128x11008 .i32) (ix2 p k)
      = ((m ((c : Thread nD τ).loc main_arg1) : IVec S4096x11008 1) (ix2 r' k)).setWidth 32 := by
  obtain ⟨-, -, e0, e1, -, -⟩ := idx_facts t
  unfold iblk
  rw [View.read_apply]
  show (V m c main_v0 : IVec S4096x11008 32) _ = _
  rw [V_main_v0]
  show ((m ((c : Thread nD τ).loc main_arg1) : IVec S4096x11008 1) _).setWidth 32 = _
  congr 2
  funext a
  apply Fin.ext
  match a with
  | ⟨0, _⟩ => show win0_1.index t (0 : Fin 2) * 128 + 1 * p.val = r'.val; omega
  | ⟨1, _⟩ => show win0_1.index t (1 : Fin 2) * 11008 + 1 * k.val = k.val; omega

/-- What point `t` leaves in the output block, at entry `y`, is the row computation of the whole arguments at the
    entry of the array that `y` is written to. -/
theorem block_entry (c : Dev nD) (t : Fin cfg0.N) (y : S128x11008.Idx) :
    (out (iblk m c 0 t : Vec Ideal S128x11008 .f32) (k0_pay2 (iblk m c 1 t : Vec Ideal S128x11008 .i32)) : FVec Ideal S128x11008 .f32) y
      = G m c (((cfg0.win 2).blk t).view.emb y) := by
  obtain ⟨p, q, rfl⟩ : ∃ (p : Fin 128) (q : Fin 11008), y = ix2 p q := ⟨y 0, y 1, eq_ix2 y⟩
  obtain ⟨-, -, -, -, e0, e1⟩ := idx_facts t
  have hN : grid0.N = 32 := N_0
  have ht : t.val < 32 := by have h : t.val < grid0.N := t.isLt; omega
  have hr : 128 * t.val + p.val < 4096 := by have := p.isLt; omega
  have he : ((cfg0.win 2).blk t).view.emb (ix2 p q) = (ix2 (⟨128 * t.val + p.val, hr⟩ : Fin 4096) q : S4096x11008.Idx) := by
    funext a
    apply Fin.ext
    match a with
    | ⟨0, _⟩ => show win0_2.index t (0 : Fin 2) * 128 + 1 * p.val = 128 * t.val + p.val; omega
    | ⟨1, _⟩ => show win0_2.index t (1 : Fin 2) * 11008 + 1 * q.val = q.val; omega
  rw [he]
  refine out_row_congr _ _ _ _ p ⟨128 * t.val + p.val, hr⟩ (fun k => iblk0_apply m c t p k _ rfl) (fun k => ?_) q
  rw [pay2_apply, iblk1_apply m c t p k ⟨128 * t.val + p.val, hr⟩ rfl]
  exact mask_word _

/-- WHAT POINT `t` WRITES BACK is block `t` of the row computation of the whole arguments. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2, out0_2_eq]
  funext y
  exact block_entry m c t y

/-- An index of the array is in point `t`'s block iff each coordinate is in the block's range on its axis. -/
theorem mem_blk (t : Fin cfg0.N) (i : S4096x11008.Idx) :
    i ∈ ((cfg0.win 2).blk t).view.set ↔ ∀ a : Fin 2, win0_2.index t a * S128x11008.size a ≤ (i a).val
      ∧ (i a).val < win0_2.index t a * S128x11008.size a + S128x11008.size a := by
  show i ∈ ((View.whole main_v1).slice (win0_2.rect t)).set ↔ _
  rw [View.set_slice_whole, Rect.mem_set_unit]
  exact Iff.rfl

/-- Row `r` lies in the block of point `r / 128`: the 32 blocks cover the array. -/
theorem covered (i : S4096x11008.Idx) : ∃ t : Fin cfg0.N, (cfg0.win 2).flush t = true ∧ i ∈ ((cfg0.win 2).blk t).view.set := by
  have hN : grid0.N = 32 := N_0
  have hi0 : (i 0).val < 4096 := (i 0).isLt
  have hi1 : (i 1).val < 11008 := (i 1).isLt
  have hlt : (i 0).val / 128 < cfg0.N := by show (i 0).val / 128 < grid0.N; omega
  obtain ⟨-, -, -, -, e0, e1⟩ := idx_facts ⟨(i 0).val / 128, hlt⟩
  refine ⟨⟨(i 0).val / 128, hlt⟩, flush0_2 _, ?_⟩
  rw [mem_blk]
  intro a
  match a with
  | ⟨0, _⟩ =>
    show win0_2.index ⟨(i 0).val / 128, hlt⟩ (0 : Fin 2) * 128 ≤ (i 0).val
      ∧ (i 0).val < win0_2.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_2.index ⟨(i 0).val / 128, hlt⟩ (1 : Fin 2) * 11008 ≤ (i 1).val
      ∧ (i 1).val < win0_2.index ⟨(i 0).val / 128, hlt⟩ (1 : Fin 2) * 11008 + 11008
    rw [e1]
    omega

/-- THE ARRAY after the run: the row computation of the argument arrays. -/
theorem final (c : Dev nD) : (dats m 0 c).arrAt 2 cfg0.N = G m c :=
  (dats m 0 c).arrAt_eq_of_cover 2 (G m c) (fun t _ => flushed_eq m c t) covered

/-- The run, read: the result array at the row computation of the arguments, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Whole

end
-- ==== Proof.RefMat.lean ====
/-
  The reference, on the whole 4096-row matrix, is the row computation of `Cert.MaskedRows`.

  The reference program reads the mask as a zero-one matrix `mf` and runs the two orders of the residual sign
  binarization on the whole matrix at once. Its steps that are not entry by entry are: a sum along each row from a zero
  initial value, whose 4096 sums are then laid out as a column; a column copied along the rows; and constants copied to
  a shape. The first two are identified with the specification's `rowSum` and `spread`; a copied constant is the same
  function as the specification's, by unfolding. Then each stage of the program is the specification's value of the same
  name, one stage after the other.
-/
import proofs.«145001_j69930657513784_1_alg».proof.Proof.RefRead
import proofs.«145001_j69930657513784_1_alg».proof.Proof.MatSpec
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.ReadP Cert.MaskedRows
open Idealize.ShloMosaic Idealize.ShloMosaic.ValueIdx

/-! ## The two steps that are not entry by entry -/

/-- The host's sum along each row from the zero word, laid out as a column, is the matrix's row sums: the initial
    value is `0`, and the index that reduces to row `p` with `k` on the summed axis is `(p, k)`. -/
theorem hostRowSum_eq (v : FVec Ideal S4096x11008 .f32) :
    broadcastInDim S4096x1 ![0] bcast_S4096_S4096x1_0
        (Host.reduceAdd v (constant (F := Ideal) S_ .f32 0x00000000#32) reducesTo_S4096x11008_S4096_d1 h_S_)
      = rowSum v := by
  funext j
  obtain ⟨p, u, rfl⟩ : ∃ (p : Fin 4096) (u : Fin 1), j = ix2 p u := ⟨j 0, j 1, eq_ix2 j⟩
  refine (broadcastInDim_apply _ bcast_S4096_S4096x1_0 _ (ix2 p u) (ix1 p) (fun a => match a with
    | ⟨0, _⟩ => by show p.val = if (4096 : Nat) = 1 then 0 else p.val; rw [if_neg (by decide)])).trans ?_
  simp only [Host.reduceAdd, Ideal.hostReduceAdd_def]
  rw [Ideal.hostReduceAdd_single reducesTo_S4096x11008_S4096_d1 (by decide)]
  show Ideal.ofBits .f32 0x00000000#32 + _ = _
  rw [Ideal.ofBits_zero_f32, zero_add]
  show _ = ∑ k : Fin 11008, v (ix2 p k)
  exact Finset.sum_congr rfl fun k _ =>
    congrArg v (funext fun a => Fin.ext (by match a with | ⟨0, _⟩ => rfl | ⟨1, _⟩ => rfl))

/-- A column of 4096 numbers copied to the matrix's shape is the column spread along the rows. -/
theorem hostSpread_eq (c : FVec Ideal S4096x1 .f32) :
    broadcastInDim S4096x11008 ![0, 1] bcast_S4096x1_S4096x11008_0_1 c = spread c := by
  funext i
  obtain ⟨p, q, rfl⟩ : ∃ (p : Fin 4096) (q : Fin 11008), i = ix2 p q := ⟨i 0, i 1, eq_ix2 i⟩
  exact broadcastInDim_apply _ bcast_S4096x1_S4096x11008_0_1 c (ix2 p q) (ix2 p (0 : Fin 1)) (fun a => match a with
    | ⟨0, _⟩ => by show p.val = if (4096 : Nat) = 1 then 0 else p.val; rw [if_neg (by decide)]
    | ⟨1, _⟩ => by show (0 : Nat) = if (1 : Nat) = 1 then 0 else q.val; rw [if_pos rfl])

/-! ## The program's stages -/

variable (x0 : (⟨S4096x11008, .f32⟩ : BufTy).Contents (Elt Ideal)) (x1 : (⟨S4096x11008, .i1⟩ : BufTy).Contents (Elt Ideal))

/-- The count of kept entries per row. -/
theorem v2_eq : val_main_v2 (F := Ideal) x1 = rowSum (val_main_v0 x1) := by
  unfold val_main_v2 val_main_v1 val_main_cst
  exact hostRowSum_eq _

/-- The reciprocal count per row. -/
theorem v9_eq : val_main_v9 (F := Ideal) x1 = invCount (val_main_v0 x1) := by
  unfold val_main_v9 val_main_v4 val_main_v8 val_main_v6
  rw [v2_eq]
  rfl

/-- The first order's residual, against the zero matrix. -/
theorem v13_eq : val_main_v13 (F := Ideal) x0 x1 = MaskedRows.residual (val_main_v10 x0 x1) zeroM (val_main_v0 x1) := rfl

/-- The first order's row mean. -/
theorem v16_eq : val_main_v16 (F := Ideal) x0 x1 = mean (val_main_v13 x0 x1) (val_main_v9 x1) := by
  unfold val_main_v16 val_main_v15 val_main_v14 val_main_cst_5
  rw [hostRowSum_eq]
  rfl

/-- The first order's centred residual. -/
theorem v19_eq : val_main_v19 (F := Ideal) x0 x1 = centered (val_main_v13 x0 x1) (val_main_v16 x0 x1) (val_main_v0 x1) := by
  unfold val_main_v19 val_main_v18 val_main_v17
  rw [hostSpread_eq]
  rfl

/-- The first order's scale. -/
theorem v26_eq : val_main_v26 (F := Ideal) x0 x1 = scale (val_main_v19 x0 x1) (val_main_v9 x1) := by
  unfold val_main_v26 val_main_v24 val_main_v23 val_main_v22 val_main_v21 val_main_v20 val_main_cst_6
  rw [hostRowSum_eq]
  rfl

/-- After the first order. -/
theorem v33_eq : val_main_v33 (F := Ideal) x0 x1 = step (val_main_v0 x1) (val_main_v10 x0 x1) (val_main_v9 x1) zeroM := by
  unfold val_main_v33 val_main_v32 val_main_v31 val_main_v30 val_main_v29 val_main_v28 val_main_v27
  rw [hostSpread_eq, hostSpread_eq, v26_eq, v19_eq, v16_eq, v13_eq]
  rfl

/-- The second order's residual, against what the first order left. -/
theorem v35_eq : val_main_v35 (F := Ideal) x0 x1 = MaskedRows.residual (val_main_v10 x0 x1) (val_main_v33 x0 x1) (val_main_v0 x1) := rfl

/-- The second order's row mean. -/
theorem v38_eq : val_main_v38 (F := Ideal) x0 x1 = mean (val_main_v35 x0 x1) (val_main_v9 x1) := by
  unfold val_main_v38 val_main_v37 val_main_v36 val_main_cst_8
  rw [hostRowSum_eq]
  rfl

/-- The second order's centred residual. -/
theorem v41_eq : val_main_v41 (F := Ideal) x0 x1 = centered (val_main_v35 x0 x1) (val_main_v38 x0 x1) (val_main_v0 x1) := by
  unfold val_main_v41 val_main_v40 val_main_v39
  rw [hostSpread_eq]
  rfl

/-- The second order's scale. -/
theorem v48_eq : val_main_v48 (F := Ideal) x0 x1 = scale (val_main_v41 x0 x1) (val_main_v9 x1) := by
  unfold val_main_v48 val_main_v46 val_main_v45 val_main_v44 val_main_v43 val_main_v42 val_main_cst_9
  rw [hostRowSum_eq]
  rfl

/-- The result: two orders of the row computation on the whole matrix, the mask read as zeros and ones. -/
theorem v55_eq : val_main_v55 (F := Ideal) x0 x1 = out x0 (uitofp .f32 x1) := by
  unfold val_main_v55 val_main_v54 val_main_v53 val_main_v52 val_main_v51 val_main_v50 val_main_v49
  rw [hostSpread_eq, hostSpread_eq, v48_eq, v41_eq, v38_eq, v35_eq, v33_eq, v9_eq]
  rfl

end Cert.ReferenceIdeal.Rows

end
-- ==== Proof.lean ====
/-
  The kernel against its reference: multi-order residual sign binarization with per-row masked mean and variance of a
  4096 × 11008 matrix under a boolean mask, computed by the kernel block by block (32 blocks of 128 whole rows) and by
  the reference on the whole matrix at once.

  At the ideal values both programs apply the same chain of operations (`Cert.MaskedRows.out`): per row, the count of
  kept entries and its guarded reciprocal; then twice: the masked residual against what has been accumulated, its masked
  mean, the centred residual, the scale `√(masked mean of squares) · c`, and the accumulation of
  `(mean + scale · sign) · mask`. The two differ in how a row sum is written (a lane reduction from zero, or a host sum
  with a zero initial value), in how the sign is written (one with the entry's sign bit where the entry is not zero, the
  entry elsewhere; or the sign function), in how the mask becomes zeros and ones (through 32-bit words, or directly), and
  in that the kernel sees 128 rows at a time. The first three are the same extended reals entry by entry; the last does
  not matter because each row of the result depends on that row of the inputs alone. No law of arithmetic beyond these
  identifications is used, so the finiteness of the inputs is never opened.

  The frames of the two kernel programs are the generated ones; the reference's frame is its run with the result
  dropped; each rewrite of the sign-bit idiom is the rule's own statement.
-/
import proofs.«145001_j69930657513784_1_alg».proof.Defs
import proofs.«145001_j69930657513784_1_alg».proof.Proof.Gen.Kernel
import proofs.«145001_j69930657513784_1_alg».proof.Proof.Gen.Kernel.Skeleton
import proofs.«145001_j69930657513784_1_alg».proof.Proof.Gen.Kernel.Launch
import proofs.«145001_j69930657513784_1_alg».proof.Proof.Gen.Kernel.Points
import proofs.«145001_j69930657513784_1_alg».proof.Proof.Gen.Kernel.Frame
import proofs.«145001_j69930657513784_1_alg».proof.Proof.Gen.KernelIdeal
import proofs.«145001_j69930657513784_1_alg».proof.Proof.Gen.KernelIdeal.Skeleton
import proofs.«145001_j69930657513784_1_alg».proof.Proof.Gen.KernelIdeal.Launch
import proofs.«145001_j69930657513784_1_alg».proof.Proof.Gen.KernelIdeal.Points
import proofs.«145001_j69930657513784_1_alg».proof.Proof.Gen.KernelIdeal.Frame
import proofs.«145001_j69930657513784_1_alg».proof.Proof.Gen.ReferenceIdeal
import proofs.«145001_j69930657513784_1_alg».proof.Proof.Gen.Pre_finite_inputs
import proofs.«145001_j69930657513784_1_alg».proof.Proof.KernelArray
import proofs.«145001_j69930657513784_1_alg».proof.Proof.RefMat
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its arguments unchanged. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both rewrites of "one with the entry's sign bit" are the rule's statement at the block's shape. -/
theorem preserves : Cert.preserves_Kernel_KernelIdeal :=
  ⟨IdealRules.sign_bit.statement Cert.KernelIdeal.S128x11008 .f32, IdealRules.sign_bit.statement Cert.KernelIdeal.S128x11008 .f32⟩

/-- From memories that agree on the matrix and the mask, both programs end with the result array at the row computation
    of those arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v55_eq, Cert.ReferenceIdeal.Rows.v55_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
